-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S5000x128 : Shape := ⟨2, ![5000, 128]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 111
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S800000x1, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S128x128, .f32⟩
  | .hbm, ⟨72, _⟩ => ⟨S50000x128, .f32⟩
  | .hbm, ⟨73, _⟩ => ⟨S50000x64, .f32⟩
  | .hbm, ⟨74, _⟩ => ⟨S50000x64, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x64, .f32⟩
  | .hbm, ⟨84, _⟩ => ⟨S800000x64, .f32⟩
  | .hbm, ⟨85, _⟩ => ⟨S800000x64, .f32⟩
  | .hbm, ⟨86, _⟩ => ⟨S_, .f32⟩
  | .hbm, ⟨87, _⟩ => ⟨S50000x64, .f32⟩
  | .hbm, ⟨88, _⟩ => ⟨S800000x1, .i32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S50000x64, .f32⟩
  | .hbm, ⟨93, _⟩ => ⟨S_, .i32⟩
  | .hbm, ⟨94, _⟩ => ⟨S800000, .i32⟩
  | .hbm, ⟨95, _⟩ => ⟨S800000, .i1⟩
  | .hbm, ⟨96, _⟩ => ⟨S_, .i32⟩
  | .hbm, ⟨97, _⟩ => ⟨S800000, .i32⟩
  | .hbm, ⟨98, _⟩ => ⟨S800000, .i32⟩
  | .hbm, ⟨99, _⟩ => ⟨S800000, .i32⟩
  | .hbm, ⟨100, _⟩ => ⟨S800000x1, .i32⟩
  | .hbm, ⟨101, _⟩ => ⟨S800000x64, .f32⟩
  | .hbm, ⟨102, _⟩ => ⟨S800000x64, .f32⟩
  | .hbm, ⟨103, _⟩ => ⟨S800000x64, .f32⟩
  | .hbm, ⟨104, _⟩ => ⟨S_, .f32⟩
  | .hbm, ⟨105, _⟩ => ⟨S50000x64, .f32⟩
  | .hbm, ⟨106, _⟩ => ⟨S800000x1, .i32⟩
  | .hbm, ⟨107, _⟩ => ⟨S50000x64, .f32⟩
  | .hbm, ⟨108, _⟩ => ⟨S1x64, .f32⟩
  | .hbm, ⟨109, _⟩ => ⟨S50000x64, .f32⟩
  | .hbm, ⟨110, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_c_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call1_cst : Ref sig .tc := ⟨.hbm, 68, rfl⟩
abbrev main_call1_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S128x64_S128x64_S128x128_d1 : Shape.Concatenates [S128x64, S128x64] S128x128 1
  shapeCasts_S5000x128_S5000x128 : S5000x128.ShapeCasts S5000x128
  shapeCasts_S128x128_S128x128 : S128x128.ShapeCasts S128x128
  slices_S50000x128_S50000x64_0_0 : S50000x128.Slices ![0, 0] S50000x64
  slices_S50000x128_S50000x64_0_64 : S50000x128.Slices ![0, 64] S50000x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 183
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S1x800000, .i32⟩
  | 9 => ⟨S800000, .i32⟩
  | 10 => ⟨S1x800000, .i32⟩
  | 11 => ⟨S800000, .i32⟩
  | 12 => ⟨S50000x128, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x64, .f32⟩
  | 72 => ⟨S_, .f32⟩
  | 73 => ⟨S800000, .f32⟩
  | 74 => ⟨S_, .f32⟩
  | 75 => ⟨S50000, .f32⟩
  | 76 => ⟨S800000x1, .i32⟩
  | 77 => ⟨S50000, .f32⟩
  | 78 => ⟨S_, .f32⟩
  | 79 => ⟨S50000, .f32⟩
  | 80 => ⟨S50000, .i1⟩
  | 81 => ⟨S_, .f32⟩
  | 82 => ⟨S50000, .f32⟩
  | 83 => ⟨S50000, .f32⟩
  | 84 => ⟨S50000, .f32⟩
  | 85 => ⟨S_, .f32⟩
  | 86 => ⟨S_, .f32⟩
  | 87 => ⟨S50000, .f32⟩
  | 88 => ⟨S50000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000, .f32⟩
  | 107 => ⟨S800000, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x64, .f32⟩
  | 117 => ⟨S800000x1, .f32⟩
  | 118 => ⟨S800000x64, .f32⟩
  | 119 => ⟨S800000x64, .f32⟩
  | 120 => ⟨S_, .f32⟩
  | 121 => ⟨S50000x64, .f32⟩
  | 122 => ⟨S800000x1, .i32⟩
  | 123 => ⟨S50000x64, .f32⟩
  | 124 => ⟨S1x64, .f32⟩
  | 125 => ⟨S50000x64, .f32⟩
  | 126 => ⟨S50000x64, .f32⟩
  | 127 => ⟨S50000x64, .f32⟩
  | _ => ⟨S50000x128, .f32⟩

abbrev hbmTy0_1 (i : Nat) : BufTy := match i % 128 with
  | 0 => ⟨S_, .f32⟩
  | 1 => ⟨S800000, .f32⟩
  | 2 => ⟨S_, .f32⟩
  | 3 => ⟨S50000, .f32⟩
  | 4 => ⟨S800000x1, .i32⟩
  | 5 => ⟨S50000, .f32⟩
  | 6 => ⟨S_, .f32⟩
  | 7 => ⟨S50000, .f32⟩
  | 8 => ⟨S50000, .i1⟩
  | 9 => ⟨S_, .f32⟩
  | 10 => ⟨S50000, .f32⟩
  | 11 => ⟨S50000, .f32⟩
  | 12 => ⟨S50000, .f32⟩
  | 13 => ⟨S_, .f32⟩
  | 14 => ⟨S_, .f32⟩
  | 15 => ⟨S50000, .f32⟩
  | 16 => ⟨S50000, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .f32⟩
  | 45 => ⟨S800000x1, .f32⟩
  | 46 => ⟨S800000x64, .f32⟩
  | 47 => ⟨S800000x64, .f32⟩
  | 48 => ⟨S_, .f32⟩
  | 49 => ⟨S50000x64, .f32⟩
  | 50 => ⟨S800000x1, .i32⟩
  | 51 => ⟨S50000x64, .f32⟩
  | 52 => ⟨S1x64, .f32⟩
  | 53 => ⟨S50000x64, .f32⟩
  | 54 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call1_cst : Ref sig .tc := ⟨.hbm, 68, rfl⟩
abbrev main_call1_v0 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_12 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_14 : Ref sig .tc := ⟨.hbm, 85, rfl⟩
abbrev main_call2_v0 : Ref sig .tc := ⟨.hbm, 86, rfl⟩
abbrev main_call2_v1 : Ref sig .tc := ⟨.hbm, 87, rfl⟩
abbrev main_v57 : Ref sig .tc := ⟨.hbm, 88, rfl⟩
abbrev main_c_15 : Ref sig .tc := ⟨.hbm, 89, rfl⟩
abbrev main_v58 : Ref sig .tc := ⟨.hbm, 90, rfl⟩
abbrev main_v59 : Ref sig .tc := ⟨.hbm, 91, rfl⟩
abbrev main_c_16 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_17 : Ref sig .tc := ⟨.hbm, 98, rfl⟩
abbrev main_v65 : Ref sig .tc := ⟨.hbm, 99, rfl⟩
abbrev main_v66 : Ref sig .tc := ⟨.hbm, 100, rfl⟩
abbrev main_c_18 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_19 : Ref sig .tc := ⟨.hbm, 108, rfl⟩
abbrev main_v73 : Ref sig .tc := ⟨.hbm, 109, rfl⟩
abbrev main_v74 : Ref sig .tc := ⟨.hbm, 110, rfl⟩
abbrev main_c_20 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_21 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_22 : Ref sig .tc := ⟨.hbm, 128, rfl⟩
abbrev main_v90 : Ref sig .tc := ⟨.hbm, 129, rfl⟩
abbrev main_cst_23 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_24 : Ref sig .tc := ⟨.hbm, 134, rfl⟩
abbrev main_v94 : Ref sig .tc := ⟨.hbm, 135, rfl⟩
abbrev main_v95 : Ref sig .tc := ⟨.hbm, 136, rfl⟩
abbrev main_cst_25 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_26 : Ref sig .tc := ⟨.hbm, 141, rfl⟩
abbrev main_call3_v0 : Ref sig .tc := ⟨.hbm, 142, rfl⟩
abbrev main_call3_v1 : Ref sig .tc := ⟨.hbm, 143, rfl⟩
abbrev main_v99 : Ref sig .tc := ⟨.hbm, 144, rfl⟩
abbrev main_c_27 : Ref sig .tc := ⟨.hbm, 145, rfl⟩
abbrev main_v100 : Ref sig .tc := ⟨.hbm, 146, rfl⟩
abbrev main_v101 : Ref sig .tc := ⟨.hbm, 147, rfl⟩
abbrev main_c_28 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_c_29 : Ref sig .tc := ⟨.hbm, 154, rfl⟩
abbrev main_v107 : Ref sig .tc := ⟨.hbm, 155, rfl⟩
abbrev main_v108 : Ref sig .tc := ⟨.hbm, 156, rfl⟩
abbrev main_c_30 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_c_31 : Ref sig .tc := ⟨.hbm, 164, rfl⟩
abbrev main_v115 : Ref sig .tc := ⟨.hbm, 165, rfl⟩
abbrev main_v116 : Ref sig .tc := ⟨.hbm, 166, rfl⟩
abbrev main_c_32 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_33 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.NamedRun.lean ====
/-
  The idealized kernel program's run with its two results named. The program is two matrix-product regions among
  stretches of host operations; its run ends with every buffer at the contents the fold through those segments
  gives it (the last of the fold's valuations, after the final stretch of host operations). Here that is kept for
  the two result buffers — the mean head and the log-deviation head — beside the eight argument arrays, which end
  as they were launched.
-/
import proofs.«106163_j21543555956945_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the two result buffers end at the last boundary's
    contents, and the argument arrays end as launched. -/
theorem run_named : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_v80) = W9 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       h c _ (mem_uc main_v80 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c)⟩)

end Cert.KernelIdeal.Named

end
-- ==== Proof.Layers.lean ====
/-
  The graph-convolution layers as functions of arrays, in the idealized kernel program's vocabulary.
  With `src`, `dst` the edges' end nodes (negative indices wrapped by the node count), `deg` the in-degree
  (a scatter-add of ones over `dst`), `s[v] = deg[v] > 0 ? rsqrt (max deg[v] 1) : 0` and the edge weight
  `wgt[e] = s[src e] * s[dst e]`, one layer sends a linear image `lin` of the node features to
      agg[v, :] = ∑ over edges e with dst e = v of lin[src e, :] * wgt[e]          (gather, scale, scatter-add)
  followed by a bias row, and for the hidden layer by a maximum with zero. Both programs apply exactly these
  operations; they differ only in how `lin` is produced.
-/
import proofs.«106163_j21543555956945_1_alg».proof.Proof.Gen.KernelIdeal

noncomputable section

namespace Cert.KernelIdeal.Layers

open Cert.KernelIdeal Cert.KernelIdeal.Gen Idealize.ShloMosaic

variable {F : FTy → Type} [FloatOps F]

/-- Row 0 of the edge list: every edge's source node. -/
def srcNode (e : IVec S2x800000 32) : IVec S800000 32 :=
  shapeCast S800000 (extractStridedSlice S1x800000 ![0, 0] e slices_S2x800000_S1x800000_0_0) shapeCasts_S1x800000_S800000

/-- Row 1 of the edge list: every edge's target node. -/
def dstNode (e : IVec S2x800000 32) : IVec S800000 32 :=
  shapeCast S800000 (extractStridedSlice S1x800000 ![1, 0] e slices_S2x800000_S1x800000_1_0) shapeCasts_S1x800000_S800000

/-- A negative node index counts from the end: add the node count to it. -/
def wrapIdx (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- The in-degree of every node: ones scattered and added over the edges' targets. -/
def inDegree (dst : IVec S800000 32) : FVec F S50000 .f32 :=
  Host.scatterAdd scatter_S50000_S800000x1_S800000_n_0_0_1
    (broadcastInDim S50000 ![] bcast_S_S50000 (constant (F := F) S_ .f32 0x00000000#32))
    (broadcastInDim S800000x1 ![0] bcast_S800000_S800000x1_0 dst)
    (broadcastInDim S800000 ![] bcast_S_S800000 (constant (F := F) S_ .f32 0x3F800000#32))

/-- `rsqrt (max deg 1)` where the degree is positive, zero elsewhere. -/
def invSqrtDegree (dst : IVec S800000 32) : FVec F S50000 .f32 :=
  select (cmpf (F := F) .ogt (inDegree dst) (broadcastInDim S50000 ![] bcast_S_S50000 (constant (F := F) S_ .f32 0x00000000#32)))
    (Host.rsqrt (maximumf (inDegree dst) (broadcastInDim S50000 ![] bcast_S_S50000 (constant (F := F) S_ .f32 0x3F800000#32))))
    (broadcastInDim S50000 ![] bcast_S_S50000 (id (constant (F := F) S_ .f32 0x00000000#32)))

/-- Every edge's weight, as a column: the product of the two end nodes' inverse root degrees. -/
def edgeWeight (src dst : IVec S800000 32) : FVec F S800000x1 .f32 :=
  broadcastInDim S800000x1 ![0] bcast_S800000_S800000x1_0
    (mulf (Host.gather gather_S50000_S800000x1_S800000_n_0_n_n_0_1_1 (invSqrtDegree dst) (broadcastInDim S800000x1 ![0] bcast_S800000_S800000x1_0 (wrapIdx src)))
      (Host.gather gather_S50000_S800000x1_S800000_n_0_n_n_0_1_1 (invSqrtDegree dst) (broadcastInDim S800000x1 ![0] bcast_S800000_S800000x1_0 (wrapIdx dst))))

/-- The hidden layer: aggregate the 128-wide linear image over the edges, add the bias row, clip at zero. -/
def hiddenOf (src dst : IVec S800000 32) (wgt : FVec F S800000x1 .f32) (b : FVec F S128 .f32) (lin : FVec F S50000x128 .f32) :
    FVec F S50000x128 .f32 :=
  maximumf
    (addf
      (Host.scatterAdd scatter_S50000x128_S800000x1_S800000x128_1_0_0_1
        (broadcastInDim S50000x128 ![] bcast_S_S50000x128 (constant (F := F) S_ .f32 0x00000000#32))
        (broadcastInDim S800000x1 ![0] bcast_S800000_S800000x1_0 dst)
        (mulf (Host.gather gather_S50000x128_S800000x1_S800000x128_1_0_n_n_0_1_1128 lin (broadcastInDim S800000x1 ![0] bcast_S800000_S800000x1_0 (wrapIdx src)))
          (broadcastInDim S800000x128 ![0, 1] bcast_S800000x1_S800000x128_0_1 wgt)))
      (broadcastInDim S50000x128 ![0, 1] bcast_S1x128_S50000x128_0_1 (broadcastInDim S1x128 ![1] bcast_S128_S1x128_1 b)))
    (broadcastInDim S50000x128 ![] bcast_S_S50000x128 (constant (F := F) S_ .f32 0x00000000#32))

/-- An output head: aggregate the 64-wide linear image over the edges and add the bias row. -/
def headOf (src dst : IVec S800000 32) (wgt : FVec F S800000x1 .f32) (b : FVec F S64 .f32) (lin : FVec F S50000x64 .f32) :
    FVec F S50000x64 .f32 :=
  addf
    (Host.scatterAdd scatter_S50000x64_S800000x1_S800000x64_1_0_0_1
      (broadcastInDim S50000x64 ![] bcast_S_S50000x64 (constant (F := F) S_ .f32 0x00000000#32))
      (broadcastInDim S800000x1 ![0] bcast_S800000_S800000x1_0 dst)
      (mulf (Host.gather gather_S50000x64_S800000x1_S800000x64_1_0_n_n_0_1_164 lin (broadcastInDim S800000x1 ![0] bcast_S800000_S800000x1_0 (wrapIdx src)))
        (broadcastInDim S800000x64 ![0, 1] bcast_S800000x1_S800000x64_0_1 wgt)))
    (broadcastInDim S50000x64 ![0, 1] bcast_S1x64_S50000x64_0_1 (broadcastInDim S1x64 ![1] bcast_S64_S1x64_1 b))

end Cert.KernelIdeal.Layers

end
-- ==== Proof.KernelFold.lean ====
/-
  The idealized kernel program's three stretches of host operations, each read as a function of the buffer contents
  it starts from (any contents `X`):
  * before the first matrix product: the edges' source and target nodes and the edge weights, from the edge list;
  * between the two products: the hidden layer from the first product's array, and the two head weights laid side
    by side;
  * after the second product: each output head from its half of the second product's columns.
  Buffers a stretch does not write keep what they held.
-/
import proofs.«106163_j21543555956945_1_alg».proof.Proof.Gen.KernelIdeal.Launch
import proofs.«106163_j21543555956945_1_alg».proof.Proof.Layers
import Idealize.ShloMosaic.Lib.StableHlo.Run

set_option maxRecDepth 16384

noncomputable section

namespace Cert.KernelIdeal.Fold

open Cert.KernelIdeal Cert.KernelIdeal.Gen Cert.KernelIdeal.Layers
open Idealize.ShloMosaic Idealize.ShloMosaic.TcCoe Idealize.SL.Sem Idealize.ShloMosaic.StableHlo

variable {F : FTy → Type} [FloatOps F] (X : Valuation τ sig (Elt F))

/-- The contents after the three stretches that precede the first product. -/
def preOps : Valuation τ sig (Elt F) := after hostOps0_2 (after hostOps0_1 (after hostOps0 X))
/-- The contents after the three stretches between the two products. -/
def midOps : Valuation τ sig (Elt F) := after hostOps1_2 (after hostOps1_1 (after hostOps1 X))
/-- The contents after the last stretch. -/
def postOps : Valuation τ sig (Elt F) := after hostOps2 X

end Cert.KernelIdeal.Fold

end
-- ==== Proof.KernelFoldPre.lean ====
/-
  The host operations before the first matrix product, from any starting contents: the edges' source and target
  nodes and the edge weights are functions of the edge list alone; the argument arrays are not written.
-/
import proofs.«106163_j21543555956945_1_alg».proof.Proof.KernelFold

set_option maxRecDepth 16384
set_option Elab.async false

noncomputable section

namespace Cert.KernelIdeal.Fold

open Cert.KernelIdeal Cert.KernelIdeal.Gen Cert.KernelIdeal.Layers
open Idealize.ShloMosaic Idealize.ShloMosaic.TcCoe Idealize.SL.Sem Idealize.ShloMosaic.StableHlo

variable {F : FTy → Type} [FloatOps F] (X : Valuation τ sig (Elt F))

/-! ## Before the first product -/

set_option maxHeartbeats 1000000 in
theorem pre_src : preOps X (Proc.devRef .tc main_v1) = srcNode (X (Proc.devRef .tc main_arg1)) := by
  unfold preOps; simp only [hostOps0, hostOps0_1, hostOps0_2]; after_results_simp <;> rfl
set_option maxHeartbeats 1000000 in
theorem pre_dst : preOps X (Proc.devRef .tc main_v3) = dstNode (X (Proc.devRef .tc main_arg1)) := by
  unfold preOps; simp only [hostOps0, hostOps0_1, hostOps0_2]; after_results_simp <;> rfl
set_option maxHeartbeats 4000000 in
theorem pre_wgt : preOps X (Proc.devRef .tc main_v29) = edgeWeight (srcNode (X (Proc.devRef .tc main_arg1))) (dstNode (X (Proc.devRef .tc main_arg1))) := by
  unfold preOps; simp only [hostOps0, hostOps0_1, hostOps0_2]; after_results_simp <;> rfl
theorem pre_main_arg0 : preOps X (Proc.devRef .tc main_arg0) = X (Proc.devRef .tc main_arg0) := by
  unfold preOps; simp only [hostOps0, hostOps0_1, hostOps0_2]; after_results_simp <;> rfl
theorem pre_main_arg2 : preOps X (Proc.devRef .tc main_arg2) = X (Proc.devRef .tc main_arg2) := by
  unfold preOps; simp only [hostOps0, hostOps0_1, hostOps0_2]; after_results_simp <;> rfl
theorem pre_main_arg3 : preOps X (Proc.devRef .tc main_arg3) = X (Proc.devRef .tc main_arg3) := by
  unfold preOps; simp only [hostOps0, hostOps0_1, hostOps0_2]; after_results_simp <;> rfl
theorem pre_main_arg4 : preOps X (Proc.devRef .tc main_arg4) = X (Proc.devRef .tc main_arg4) := by
  unfold preOps; simp only [hostOps0, hostOps0_1, hostOps0_2]; after_results_simp <;> rfl
theorem pre_main_arg5 : preOps X (Proc.devRef .tc main_arg5) = X (Proc.devRef .tc main_arg5) := by
  unfold preOps; simp only [hostOps0, hostOps0_1, hostOps0_2]; after_results_simp <;> rfl
theorem pre_main_arg6 : preOps X (Proc.devRef .tc main_arg6) = X (Proc.devRef .tc main_arg6) := by
  unfold preOps; simp only [hostOps0, hostOps0_1, hostOps0_2]; after_results_simp <;> rfl
theorem pre_main_arg7 : preOps X (Proc.devRef .tc main_arg7) = X (Proc.devRef .tc main_arg7) := by
  unfold preOps; simp only [hostOps0, hostOps0_1, hostOps0_2]; after_results_simp <;> rfl

end Cert.KernelIdeal.Fold

end
-- ==== Proof.KernelFoldMid.lean ====
/-
  The host operations between the two matrix products, from any starting contents: the hidden activations from the
  first product's array, the two head weights laid side by side; the edges' nodes and weights and the head biases
  are not written.
-/
import proofs.«106163_j21543555956945_1_alg».proof.Proof.KernelFold

set_option maxRecDepth 16384
set_option Elab.async false

noncomputable section

namespace Cert.KernelIdeal.Fold

open Cert.KernelIdeal Cert.KernelIdeal.Gen Cert.KernelIdeal.Layers
open Idealize.ShloMosaic Idealize.ShloMosaic.TcCoe Idealize.SL.Sem Idealize.ShloMosaic.StableHlo

variable {F : FTy → Type} [FloatOps F] (X : Valuation τ sig (Elt F))

/-! ## Between the two products -/

set_option maxHeartbeats 4000000 in
theorem mid_hidden : midOps X (Proc.devRef .tc main_v46)
    = hiddenOf (X (Proc.devRef .tc main_v1)) (X (Proc.devRef .tc main_v3)) (X (Proc.devRef .tc main_v29)) (X (Proc.devRef .tc main_arg3)) (X (Proc.devRef .tc main_v30)) := by
  unfold midOps; simp only [hostOps1, hostOps1_1, hostOps1_2]; after_results_simp <;> rfl
set_option maxHeartbeats 1000000 in
theorem mid_wcat : midOps X (Proc.devRef .tc main_v47)
    = concatenate S128x128 1 [⟨S128x64, X (Proc.devRef .tc main_arg4)⟩, ⟨S128x64, X (Proc.devRef .tc main_arg6)⟩] concatenates_S128x64_S128x64_S128x128_d1 := by
  unfold midOps; simp only [hostOps1, hostOps1_1, hostOps1_2]; after_results_simp <;> rfl
theorem mid_main_v1 : midOps X (Proc.devRef .tc main_v1) = X (Proc.devRef .tc main_v1) := by
  unfold midOps; simp only [hostOps1, hostOps1_1, hostOps1_2]; after_results_simp <;> rfl
theorem mid_main_v3 : midOps X (Proc.devRef .tc main_v3) = X (Proc.devRef .tc main_v3) := by
  unfold midOps; simp only [hostOps1, hostOps1_1, hostOps1_2]; after_results_simp <;> rfl
theorem mid_main_v29 : midOps X (Proc.devRef .tc main_v29) = X (Proc.devRef .tc main_v29) := by
  unfold midOps; simp only [hostOps1, hostOps1_1, hostOps1_2]; after_results_simp <;> rfl
theorem mid_main_arg5 : midOps X (Proc.devRef .tc main_arg5) = X (Proc.devRef .tc main_arg5) := by
  unfold midOps; simp only [hostOps1, hostOps1_1, hostOps1_2]; after_results_simp <;> rfl
theorem mid_main_arg7 : midOps X (Proc.devRef .tc main_arg7) = X (Proc.devRef .tc main_arg7) := by
  unfold midOps; simp only [hostOps1, hostOps1_1, hostOps1_2]; after_results_simp <;> rfl

end Cert.KernelIdeal.Fold

end
-- ==== Proof.KernelFoldPost.lean ====
/-
  The host operations after the second matrix product, from any starting contents: each output head from its half
  of the product's columns.
-/
import proofs.«106163_j21543555956945_1_alg».proof.Proof.KernelFold

set_option maxRecDepth 16384
set_option Elab.async false

noncomputable section

namespace Cert.KernelIdeal.Fold

open Cert.KernelIdeal Cert.KernelIdeal.Gen Cert.KernelIdeal.Layers
open Idealize.ShloMosaic Idealize.ShloMosaic.TcCoe Idealize.SL.Sem Idealize.ShloMosaic.StableHlo

variable {F : FTy → Type} [FloatOps F] (X : Valuation τ sig (Elt F))

/-! ## After the second product -/

set_option maxHeartbeats 4000000 in
theorem post_mu : postOps X (Proc.devRef .tc main_v65)
    = headOf (X (Proc.devRef .tc main_v1)) (X (Proc.devRef .tc main_v3)) (X (Proc.devRef .tc main_v29)) (X (Proc.devRef .tc main_arg5))
        (extractStridedSlice S50000x64 ![0, 0] (X (Proc.devRef .tc main_v48)) slices_S50000x128_S50000x64_0_0) := by
  unfold postOps; simp only [hostOps2]; after_results_simp <;> rfl
set_option maxHeartbeats 4000000 in
theorem post_ls : postOps X (Proc.devRef .tc main_v80)
    = headOf (X (Proc.devRef .tc main_v1)) (X (Proc.devRef .tc main_v3)) (X (Proc.devRef .tc main_v29)) (X (Proc.devRef .tc main_arg7))
        (extractStridedSlice S50000x64 ![0, 64] (X (Proc.devRef .tc main_v48)) slices_S50000x128_S50000x64_0_64) := by
  unfold postOps; simp only [hostOps2]; after_results_simp <;> rfl

end Cert.KernelIdeal.Fold

end
-- ==== Proof.Product.lean ====
/-
  The one arithmetic fact of this certificate: a row block of activations times a 128-row weight array,
  contracted over the 128 features, read index by index as a plain sum
      (x · w)[r, c] = ∑ k < 128, x[r, k] * w[k, c]
  on the extended reals. Both matrix-product kernels compute exactly this on each block of 5000 rows: their
  operands are narrowed to bf16 first, which changes nothing on the extended reals, and the product is
  accumulated into a zero array, which adds nothing.
-/
import proofs.«106163_j21543555956945_1_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.GcnProduct

open Idealize.ShloMosaic Idealize.ShloMosaic.ValueIdx

/-- Rows of `x` times columns of `w`: entry `[r, c]` is the sum over the 128 features `k` of `x[r, k] * w[k, c]`. -/
def rowsTimes {R C : Nat} (x : (⟨2, ![R, 128]⟩ : Shape).Idx → EReal) (w : (⟨2, ![128, C]⟩ : Shape).Idx → EReal) :
    (⟨2, ![R, C]⟩ : Shape).Idx → EReal :=
  fun i => ∑ k : Fin 128, x (ix2 (i 0) k) * w (ix2 k (i 1))

theorem rowsTimes_apply {R C : Nat} (x : (⟨2, ![R, 128]⟩ : Shape).Idx → EReal) (w : (⟨2, ![128, C]⟩ : Shape).Idx → EReal)
    (i : (⟨2, ![R, C]⟩ : Shape).Idx) : rowsTimes x w i = ∑ k : Fin 128, x (ix2 (i 0) k) * w (ix2 k (i 1)) := rfl

end Cert.GcnProduct

namespace Cert.KernelIdeal.BlockProduct

open Cert.KernelIdeal Cert.KernelIdeal.Gen Idealize.ShloMosaic Idealize.ShloMosaic.ValueIdx Cert.GcnProduct

/-- The left operand's row coordinate under the block product's dimension numbers is the result's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its feature coordinate is the contracted index. -/
theorem lhs_feat (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The weight's row coordinate is the contracted index. -/
theorem rhs_feat (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The weight's column coordinate is the result's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product accumulated into zeros is the plain sum over the 128 features. -/
theorem matmul_zero_apply (x : FVec Ideal S5000x128 .bf16) (w : FVec Ideal S128x128 .bf16) (i : S5000x128.Idx) :
    matmul dot_S5000x128_S128x128_S5000x128_1_0_0_1_n_n none x w (constant (F := Ideal) S5000x128 .f32 0x00000000#32) i
      = ∑ k : Fin 128, x (ix2 (i 0) k) * w (ix2 k (i 1)) := by
  show FloatOps.matmul dot_S5000x128_S128x128_S5000x128_1_0_0_1_n_n none x w (constant (F := Ideal) S5000x128 .f32 0x00000000#32) i = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx i ((contrEquiv1 dot_S5000x128_S128x128_S5000x128_1_0_0_1_n_n 128 rfl rfl).symm k) = ix2 (i 0) k := funext fun a => Fin.ext (by
    match a with
    | ⟨0, _⟩ => exact lhs_row _ _
    | ⟨1, _⟩ => exact (lhs_feat _ _).trans hk)
  have er : dot_S5000x128_S128x128_S5000x128_1_0_0_1_n_n.rhsIdx i ((contrEquiv1 dot_S5000x128_S128x128_S5000x128_1_0_0_1_n_n 128 rfl rfl).symm k) = ix2 k (i 1) := funext fun a => Fin.ext (by
    match a with
    | ⟨0, _⟩ => exact (rhs_feat _ _).trans hk
    | ⟨1, _⟩ => exact rhs_col _ _)
  exact congrArg₂ (· * ·) (congrArg x el) (congrArg w er)

/-- What the first kernel stores for a block: the block's rows times the whole weight array. -/
theorem pay0_eq (x : Vec Ideal S5000x128 .f32) (w : Vec Ideal S128x128 .f32) :
    k0_pay1 (F := Ideal) x w = rowsTimes (R := 5000) (C := 128) x w := by
  funext i
  unfold k0_pay1
  exact matmul_zero_apply _ _ i

/-- What the second kernel stores for a block: the same product (its two shape casts are between equal shapes). -/
theorem pay1_eq (x : Vec Ideal S5000x128 .f32) (w : Vec Ideal S128x128 .f32) :
    k1_pay1 (F := Ideal) x w = rowsTimes (R := 5000) (C := 128) x w := by
  funext i
  unfold k1_pay1
  rw [shapeCast_self, shapeCast_self]
  exact matmul_zero_apply _ _ i

end Cert.KernelIdeal.BlockProduct

end
-- ==== Proof.RegionValue.lean ====
/-
  Each matrix-product region as one function of the arrays it finds. The region runs over ten grid points; point
  `t` loads rows `5000 t … 5000 t + 4999` of the activations and the whole 128 × 128 weight array, and writes back
  their product as rows `5000 t … 5000 t + 4999` of the result. Row `r` of the product depends on row `r` of the
  activations only, so each written block is that block of the whole product, and the ten blocks cover the result
  array: after the region it holds  result[r, c] = ∑ k < 128, act[r, k] * weight[k, c].
-/
import proofs.«106163_j21543555956945_1_alg».proof.Proof.Gen.KernelIdeal.Frame
import proofs.«106163_j21543555956945_1_alg».proof.Proof.Product
import Idealize.ShloMosaic.Lib.Pipeline.Value

set_option maxRecDepth 16384

noncomputable section

open scoped BigOperators

namespace Cert.KernelIdeal.RegionValue

open Cert.KernelIdeal Cert.KernelIdeal.Gen Cert.KernelIdeal.BlockProduct Cert.GcnProduct
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- A row of a block's product is that row of the whole product, once the block's row is the whole array's row and
    the block's weights are the whole array's weights, feature by feature. -/
theorem block_rows (A : (⟨2, ![50000, 128]⟩ : Shape).Idx → EReal) (Wt : (⟨2, ![128, 128]⟩ : Shape).Idx → EReal)
    (xb : (⟨2, ![5000, 128]⟩ : Shape).Idx → EReal) (wb : (⟨2, ![128, 128]⟩ : Shape).Idx → EReal)
    (j : (⟨2, ![5000, 128]⟩ : Shape).Idx) (J : (⟨2, ![50000, 128]⟩ : Shape).Idx)
    (hx : ∀ k : Fin 128, xb (ix2 (n0 := 5000) (n1 := 128) (j 0) k) = A (ix2 (n0 := 50000) (n1 := 128) (J 0) k))
    (hw : ∀ k : Fin 128, wb (ix2 (n0 := 128) (n1 := 128) k (j 1)) = Wt (ix2 (n0 := 128) (n1 := 128) k (J 1))) :
    rowsTimes (R := 5000) (C := 128) xb wb j = rowsTimes (R := 50000) (C := 128) A Wt J :=
  Finset.sum_congr rfl fun k _ => by rw [hx k, hw k]

/-! ## Region 0: the array the first product writes -/

/-- The printed index maps over the ten grid points: the activations' and the result's block is the point's own
    row block, the weight's block is the whole array. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two whole arrays as the region finds them:
    row `r` of the block is row `5000 t + r` of the activations, and the weight block is the whole weight array. -/
theorem flushed0_eq (c : Dev nD) (t : Fin cfg0.N) :
    (dat0 V c).flushed 2 t = ((cfg0.win 2).blk t).view.read (Elt Ideal)
      (rowsTimes (R := 50000) (C := 128) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay0_eq]
  obtain ⟨e0, e1, e2, e3, e4, e5⟩ := idx_facts0 t
  funext j
  refine block_rows (V c main_arg0) (V c main_arg2) (iblk0 V c 0 t) (iblk0 V c 1 t) j (((cfg0.win 2).blk t).view.emb j) (fun k => ?_) (fun k => ?_)
  · show V c main_arg0 (((cfg0.win 0).blk t).view.emb (ix2 (n0 := 5000) (n1 := 128) (j 0) k))
        = V c main_arg0 (ix2 (n0 := 50000) (n1 := 128) ((((cfg0.win 2).blk t).view.emb j) 0) k)
    refine congrArg (V c main_arg0) ?_
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg2 (((cfg0.win 1).blk t).view.emb (ix2 (n0 := 128) (n1 := 128) k (j 1)))
        = V c main_arg2 (ix2 (n0 := 128) (n1 := 128) k ((((cfg0.win 2).blk t).view.emb j) 1))
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The ten row blocks cover the array: row `r` lies in the block of point `r / 5000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  have hlt : (i 0).val / 5000 < grid0.N := by rw [hN]; omega
  obtain ⟨e0, e1, e2, e3, e4, e5⟩ := idx_facts0 ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [mem_blk0]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    omega

/-- The whole result array after the region: the product of the two arrays the region found. -/
theorem final0 (c : Dev nD) :
    (dat0 V c).arrAt 2 cfg0.N = rowsTimes (R := 50000) (C := 128) (V c main_arg0) (V c main_arg2) :=
  (dat0 V c).arrAt_eq_of_cover 2 _ (fun t _ => flushed0_eq V c t) cover0

/-! ## Region 1: the array the second product writes -/

/-- The printed index maps over the ten grid points: the activations' and the result's block is the point's own
    row block, the weight's block is the whole array. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the product of the two whole arrays as the region finds them:
    row `r` of the block is row `5000 t + r` of the activations, and the weight block is the whole weight array. -/
theorem flushed1_eq (c : Dev nD) (t : Fin cfg1.N) :
    (dat1 V c).flushed 2 t = ((cfg1.win 2).blk t).view.read (Elt Ideal)
      (rowsTimes (R := 50000) (C := 128) (V c main_v46) (V c main_v47)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  rw [pay1_eq]
  obtain ⟨e0, e1, e2, e3, e4, e5⟩ := idx_facts1 t
  funext j
  refine block_rows (V c main_v46) (V c main_v47) (iblk1 V c 0 t) (iblk1 V c 1 t) j (((cfg1.win 2).blk t).view.emb j) (fun k => ?_) (fun k => ?_)
  · show V c main_v46 (((cfg1.win 0).blk t).view.emb (ix2 (n0 := 5000) (n1 := 128) (j 0) k))
        = V c main_v46 (ix2 (n0 := 50000) (n1 := 128) ((((cfg1.win 2).blk t).view.emb j) 0) k)
    refine congrArg (V c main_v46) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  · show V c main_v47 (((cfg1.win 1).blk t).view.emb (ix2 (n0 := 128) (n1 := 128) k (j 1)))
        = V c main_v47 (ix2 (n0 := 128) (n1 := 128) k ((((cfg1.win 2).blk t).view.emb j) 1))
    refine congrArg (V c main_v47) ?_
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega

/-- An index of the result array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- The ten row blocks cover the array: row `r` lies in the block of point `r / 5000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  have hlt : (i 0).val / 5000 < grid1.N := by rw [hN]; omega
  obtain ⟨e0, e1, e2, e3, e4, e5⟩ := idx_facts1 ⟨(i 0).val / 5000, hlt⟩
  have e4' : win1_2.index ⟨(i 0).val / 5000, hlt⟩ (0 : Fin 2) = (i 0).val / 5000 := e4
  refine ⟨⟨(i 0).val / 5000, hlt⟩, flush1_2 _, ?_⟩
  rw [mem_blk1]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    omega
  | ⟨1, _⟩ =>
    show win1_2.index ⟨(i 0).val / 5000, hlt⟩ (1 : Fin 2) * 128 ≤ (i 1).val ∧ (i 1).val < win1_2.index ⟨(i 0).val / 5000, hlt⟩ (1 : Fin 2) * 128 + 128
    omega

/-- The whole result array after the region: the product of the two arrays the region found. -/
theorem final1 (c : Dev nD) :
    (dat1 V c).arrAt 2 cfg1.N = rowsTimes (R := 50000) (C := 128) (V c main_v46) (V c main_v47) :=
  (dat1 V c).arrAt_eq_of_cover 2 _ (fun t _ => flushed1_eq V c t) cover1

end Cert.KernelIdeal.RegionValue

end
-- ==== Proof.HeadColumns.lean ====
/-
  The two output heads share one matrix product in the kernel program: the hidden activations are multiplied by the
  two 128 × 64 head weights laid side by side as one 128 × 128 array, and the result's columns 0 … 63 and 64 … 127
  are then taken apart. Column `c < 64` of the side-by-side array is column `c` of the first weight array and column
  `64 + c` is column `c` of the second, so
      (h · [a | b])[r, c]      = ∑ k, h[r, k] * a[k, c]   and   (h · [a | b])[r, 64 + c] = ∑ k, h[r, k] * b[k, c]:
  each half is the product with that head's own weights.
-/
import proofs.«106163_j21543555956945_1_alg».proof.Proof.Gen.KernelIdeal
import proofs.«106163_j21543555956945_1_alg».proof.Proof.Product
import Idealize.ShloMosaic.PureOps.Ideal
import Idealize.ShloMosaic.Lib.ValueIdx
import Idealize.ShloMosaic.Lib.Pipeline.Value

noncomputable section

open scoped BigOperators

namespace Cert.KernelIdeal.HeadColumns

open Cert.KernelIdeal Cert.KernelIdeal.Gen Idealize.ShloMosaic Idealize.ShloMosaic.ValueIdx Cert.GcnProduct

/-- The left half of the columns of the product with the side-by-side weights is the product with the first. -/
theorem columns_lo (h : FVec Ideal S50000x128 .f32) (a b : FVec Ideal S128x64 .f32) :
    extractStridedSlice S50000x64 ![0, 0]
        (rowsTimes (R := 50000) (C := 128) h (concatenate S128x128 1 [⟨S128x64, a⟩, ⟨S128x64, b⟩] concatenates_S128x64_S128x64_S128x128_d1))
        slices_S50000x128_S50000x64_0_0
      = rowsTimes (R := 50000) (C := 64) h a := by
  funext i
  have hi1 : (i 1).val < 64 := (i 1).isLt
  refine (extractStridedSlice_apply ![0, 0] _ slices_S50000x128_S50000x64_0_0 i
    (ix2 (n0 := 50000) (n1 := 128) (i 0) ⟨(i 1).val, by omega⟩) (fun d => match d with
      | ⟨0, _⟩ => by show (i 0).val = 0 + (i 0).val; omega
      | ⟨1, _⟩ => by show (i 1).val = 0 + (i 1).val; omega)).trans ?_
  show (∑ k : Fin 128, h (ix2 (n0 := 50000) (n1 := 128) (i 0) k)
        * concatenate S128x128 1 [⟨S128x64, a⟩, ⟨S128x64, b⟩] concatenates_S128x64_S128x64_S128x128_d1 (ix2 (n0 := 128) (n1 := 128) k ⟨(i 1).val, by omega⟩))
      = ∑ k : Fin 128, h (ix2 (n0 := 50000) (n1 := 128) (i 0) k) * a (ix2 (n0 := 128) (n1 := 64) k (i 1))
  refine Finset.sum_congr rfl fun k _ => ?_
  refine congrArg (h (ix2 (n0 := 50000) (n1 := 128) (i 0) k) * ·) ?_
  exact concatenate_pair_apply_left (1 : Fin S128x128.rank) a b concatenates_S128x64_S128x64_S128x128_d1
    (ix2 (n0 := 128) (n1 := 128) k ⟨(i 1).val, by omega⟩) rfl (ix2 (n0 := 128) (n1 := 64) k (i 1)) (fun d => match d with
      | ⟨0, _⟩ => rfl
      | ⟨1, _⟩ => rfl)

/-- The right half of the columns is the product with the second. -/
theorem columns_hi (h : FVec Ideal S50000x128 .f32) (a b : FVec Ideal S128x64 .f32) :
    extractStridedSlice S50000x64 ![0, 64]
        (rowsTimes (R := 50000) (C := 128) h (concatenate S128x128 1 [⟨S128x64, a⟩, ⟨S128x64, b⟩] concatenates_S128x64_S128x64_S128x128_d1))
        slices_S50000x128_S50000x64_0_64
      = rowsTimes (R := 50000) (C := 64) h b := by
  funext i
  have hi1 : (i 1).val < 64 := (i 1).isLt
  refine (extractStridedSlice_apply ![0, 64] _ slices_S50000x128_S50000x64_0_64 i
    (ix2 (n0 := 50000) (n1 := 128) (i 0) ⟨64 + (i 1).val, by omega⟩) (fun d => match d with
      | ⟨0, _⟩ => by show (i 0).val = 0 + (i 0).val; omega
      | ⟨1, _⟩ => by show 64 + (i 1).val = 64 + (i 1).val; rfl)).trans ?_
  show (∑ k : Fin 128, h (ix2 (n0 := 50000) (n1 := 128) (i 0) k)
        * concatenate S128x128 1 [⟨S128x64, a⟩, ⟨S128x64, b⟩] concatenates_S128x64_S128x64_S128x128_d1 (ix2 (n0 := 128) (n1 := 128) k ⟨64 + (i 1).val, by omega⟩))
      = ∑ k : Fin 128, h (ix2 (n0 := 50000) (n1 := 128) (i 0) k) * b (ix2 (n0 := 128) (n1 := 64) k (i 1))
  refine Finset.sum_congr rfl fun k _ => ?_
  refine congrArg (h (ix2 (n0 := 50000) (n1 := 128) (i 0) k) * ·) ?_
  exact concatenate_pair_apply_right (1 : Fin S128x128.rank) a b concatenates_S128x64_S128x64_S128x128_d1
    (ix2 (n0 := 128) (n1 := 128) k ⟨64 + (i 1).val, by omega⟩) rfl rfl (ix2 (n0 := 128) (n1 := 64) k (i 1))
    (fun d hd => match d, hd with
      | ⟨0, _⟩, _ => rfl
      | ⟨1, _⟩, hd => absurd rfl hd)
    (by show (i 1).val + 64 = 64 + (i 1).val; omega)

end Cert.KernelIdeal.HeadColumns

end
-- ==== Proof.Encoder.lean ====
/-
  One output head of the two-layer graph encoder as ONE function of the argument arrays:
      lin₁  = x · w₁                                  (node features times the first weights)
      hid   = max (aggregate lin₁ + b₁) 0              (the hidden layer)
      out   = aggregate (hid · w_head) + b_head        (the head: w_head, b_head are the mean's or the log-deviation's)
  where `aggregate` gathers each edge's source row, scales it by the edge weight and adds it into the edge's target
  row, and the edge weights come from the in-degrees of the edge list `e`. Both programs compute this for both
  heads.
-/
import proofs.«106163_j21543555956945_1_alg».proof.Proof.Layers
import proofs.«106163_j21543555956945_1_alg».proof.Proof.Product

noncomputable section

namespace Cert.KernelIdeal.Encoder

open Cert.KernelIdeal Cert.KernelIdeal.Gen Cert.KernelIdeal.Layers Cert.GcnProduct Idealize.ShloMosaic

/-- The hidden activations from the node features, the edge list and the first layer's weights and bias. -/
def hiddenAct (x : FVec Ideal S50000x128 .f32) (e : IVec S2x800000 32) (w1 : FVec Ideal S128x128 .f32) (b1 : FVec Ideal S128 .f32) :
    FVec Ideal S50000x128 .f32 :=
  hiddenOf (srcNode e) (dstNode e) (edgeWeight (srcNode e) (dstNode e)) b1 (rowsTimes (R := 50000) (C := 128) x w1)

/-- One output head from the hidden activations' product with that head's weights. -/
def encoderHead (x : FVec Ideal S50000x128 .f32) (e : IVec S2x800000 32) (w1 : FVec Ideal S128x128 .f32) (b1 : FVec Ideal S128 .f32)
    (wh : FVec Ideal S128x64 .f32) (bh : FVec Ideal S64 .f32) : FVec Ideal S50000x64 .f32 :=
  headOf (srcNode e) (dstNode e) (edgeWeight (srcNode e) (dstNode e)) bh (rowsTimes (R := 50000) (C := 64) (hiddenAct x e w1 b1) wh)

end Cert.KernelIdeal.Encoder

end
-- ==== Proof.KernelValue.lean ====
/-
  The idealized kernel program's two results as the encoder's head function of the argument arrays. The run ends
  with each result buffer at the contents the fold through the program's segments gives it; read backwards:
  * the last stretch of host operations makes each head from its half of the second product's columns;
  * the second region's array is the hidden activations times the two head weights side by side, so each half is the
    product with that head's weights;
  * the stretch before it makes the hidden activations from the first region's array, which is the node features
    times the first weights;
  * the edges' end nodes and weights are computed once, before the first region, and no later segment writes them.
-/
import proofs.«106163_j21543555956945_1_alg».proof.Proof.Gen.KernelIdeal.Frame
import proofs.«106163_j21543555956945_1_alg».proof.Proof.NamedRun
import proofs.«106163_j21543555956945_1_alg».proof.Proof.KernelFoldPre
import proofs.«106163_j21543555956945_1_alg».proof.Proof.KernelFoldMid
import proofs.«106163_j21543555956945_1_alg».proof.Proof.KernelFoldPost
import proofs.«106163_j21543555956945_1_alg».proof.Proof.RegionValue
import proofs.«106163_j21543555956945_1_alg».proof.Proof.HeadColumns
import proofs.«106163_j21543555956945_1_alg».proof.Proof.Encoder

set_option maxRecDepth 16384

noncomputable section

namespace Cert.KernelIdeal.KValue

open Cert.KernelIdeal Cert.KernelIdeal.Gen Cert.KernelIdeal.Layers Cert.KernelIdeal.Fold Cert.KernelIdeal.RegionValue
open Cert.KernelIdeal.HeadColumns Cert.KernelIdeal.Encoder Cert.GcnProduct
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The fold's boundaries through the three groups of host stretches -/

theorem W3_eq : W3 m ρ c = preOps (W0 m ρ c) := rfl
theorem W7_eq : W7 m ρ c = midOps (W4 m ρ c) := rfl
theorem W9_eq : W9 m ρ c = postOps (W8 m ρ c) := rfl

/-! ## At the first region's entry and exit -/

theorem W3_src : W3 m ρ c (Proc.devRef .tc main_v1) = srcNode (m ((c : Thread nD τ).loc main_arg1)) := pre_src (W0 m ρ c)
theorem W3_dst : W3 m ρ c (Proc.devRef .tc main_v3) = dstNode (m ((c : Thread nD τ).loc main_arg1)) := pre_dst (W0 m ρ c)
theorem W3_wgt : W3 m ρ c (Proc.devRef .tc main_v29) = edgeWeight (F := Ideal) (srcNode (m ((c : Thread nD τ).loc main_arg1))) (dstNode (m ((c : Thread nD τ).loc main_arg1))) := pre_wgt (W0 m ρ c)
theorem W3_arg0 : W3 m ρ c (Proc.devRef .tc main_arg0) = (m ((c : Thread nD τ).loc main_arg0)) := pre_main_arg0 (W0 m ρ c)
theorem W3_arg2 : W3 m ρ c (Proc.devRef .tc main_arg2) = (m ((c : Thread nD τ).loc main_arg2)) := pre_main_arg2 (W0 m ρ c)
theorem W3_arg3 : W3 m ρ c (Proc.devRef .tc main_arg3) = (m ((c : Thread nD τ).loc main_arg3)) := pre_main_arg3 (W0 m ρ c)
theorem W3_arg4 : W3 m ρ c (Proc.devRef .tc main_arg4) = (m ((c : Thread nD τ).loc main_arg4)) := pre_main_arg4 (W0 m ρ c)
theorem W3_arg5 : W3 m ρ c (Proc.devRef .tc main_arg5) = (m ((c : Thread nD τ).loc main_arg5)) := pre_main_arg5 (W0 m ρ c)
theorem W3_arg6 : W3 m ρ c (Proc.devRef .tc main_arg6) = (m ((c : Thread nD τ).loc main_arg6)) := pre_main_arg6 (W0 m ρ c)
theorem W3_arg7 : W3 m ρ c (Proc.devRef .tc main_arg7) = (m ((c : Thread nD τ).loc main_arg7)) := pre_main_arg7 (W0 m ρ c)

theorem W4_src : W4 m ρ c (Proc.devRef .tc main_v1) = srcNode (m ((c : Thread nD τ).loc main_arg1)) := (W4_of_ne m ρ c main_v1 (by decide)).trans (W3_src m ρ c)
theorem W4_dst : W4 m ρ c (Proc.devRef .tc main_v3) = dstNode (m ((c : Thread nD τ).loc main_arg1)) := (W4_of_ne m ρ c main_v3 (by decide)).trans (W3_dst m ρ c)
theorem W4_wgt : W4 m ρ c (Proc.devRef .tc main_v29) = edgeWeight (F := Ideal) (srcNode (m ((c : Thread nD τ).loc main_arg1))) (dstNode (m ((c : Thread nD τ).loc main_arg1))) := (W4_of_ne m ρ c main_v29 (by decide)).trans (W3_wgt m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)
theorem W4_arg7 : W4 m ρ c (Proc.devRef .tc main_arg7) = (m ((c : Thread nD τ).loc main_arg7)) := (W4_of_ne m ρ c main_arg7 (by decide)).trans (W3_arg7 m ρ c)

/-- The first region's array: the node features times the first weights. -/
theorem first_product : W4 m ρ c (Proc.devRef .tc main_v30) = rowsTimes (R := 50000) (C := 128) (m ((c : Thread nD τ).loc main_arg0)) (m ((c : Thread nD τ).loc main_arg2)) :=
  (W4_arr m ρ c 2).trans ((final0 (V3 m ρ) c).trans
    (congrArg₂ (rowsTimes (R := 50000) (C := 128)) (W3_arg0 m ρ c) (W3_arg2 m ρ c)))

/-! ## At the second region's entry and exit -/

/-- The hidden activations, as the second region finds them. -/
theorem W7_hidden : W7 m ρ c (Proc.devRef .tc main_v46) = hiddenAct (m ((c : Thread nD τ).loc main_arg0)) (m ((c : Thread nD τ).loc main_arg1)) (m ((c : Thread nD τ).loc main_arg2)) (m ((c : Thread nD τ).loc main_arg3)) := by
  refine (mid_hidden (W4 m ρ c)).trans ?_
  rw [W4_src, W4_dst, W4_wgt, W4_arg3, first_product]
  rfl

/-- The two head weights side by side, as the second region finds them. -/
theorem W7_wcat : W7 m ρ c (Proc.devRef .tc main_v47)
    = concatenate S128x128 1 [⟨S128x64, (m ((c : Thread nD τ).loc main_arg4))⟩, ⟨S128x64, (m ((c : Thread nD τ).loc main_arg6))⟩] concatenates_S128x64_S128x64_S128x128_d1 := by
  refine (mid_wcat (W4 m ρ c)).trans ?_
  rw [W4_arg4, W4_arg6]

theorem W8_src : W8 m ρ c (Proc.devRef .tc main_v1) = srcNode (m ((c : Thread nD τ).loc main_arg1)) :=
  (W8_of_ne m ρ c main_v1 (by decide)).trans ((mid_main_v1 (W4 m ρ c)).trans (W4_src m ρ c))
theorem W8_dst : W8 m ρ c (Proc.devRef .tc main_v3) = dstNode (m ((c : Thread nD τ).loc main_arg1)) :=
  (W8_of_ne m ρ c main_v3 (by decide)).trans ((mid_main_v3 (W4 m ρ c)).trans (W4_dst m ρ c))
theorem W8_wgt : W8 m ρ c (Proc.devRef .tc main_v29) = edgeWeight (F := Ideal) (srcNode (m ((c : Thread nD τ).loc main_arg1))) (dstNode (m ((c : Thread nD τ).loc main_arg1))) :=
  (W8_of_ne m ρ c main_v29 (by decide)).trans ((mid_main_v29 (W4 m ρ c)).trans (W4_wgt m ρ c))
theorem W8_arg5 : W8 m ρ c (Proc.devRef .tc main_arg5) = (m ((c : Thread nD τ).loc main_arg5)) :=
  (W8_of_ne m ρ c main_arg5 (by decide)).trans ((mid_main_arg5 (W4 m ρ c)).trans (W4_arg5 m ρ c))
theorem W8_arg7 : W8 m ρ c (Proc.devRef .tc main_arg7) = (m ((c : Thread nD τ).loc main_arg7)) :=
  (W8_of_ne m ρ c main_arg7 (by decide)).trans ((mid_main_arg7 (W4 m ρ c)).trans (W4_arg7 m ρ c))

/-- The second region's array: the hidden activations times the two head weights side by side. -/
theorem second_product : W8 m ρ c (Proc.devRef .tc main_v48)
    = rowsTimes (R := 50000) (C := 128) (hiddenAct (m ((c : Thread nD τ).loc main_arg0)) (m ((c : Thread nD τ).loc main_arg1)) (m ((c : Thread nD τ).loc main_arg2)) (m ((c : Thread nD τ).loc main_arg3)))
        (concatenate S128x128 1 [⟨S128x64, (m ((c : Thread nD τ).loc main_arg4))⟩, ⟨S128x64, (m ((c : Thread nD τ).loc main_arg6))⟩] concatenates_S128x64_S128x64_S128x128_d1) :=
  (W8_arr m ρ c 2).trans ((final1 (V7 m ρ) c).trans
    (congrArg₂ (rowsTimes (R := 50000) (C := 128)) (W7_hidden m ρ c) (W7_wcat m ρ c)))

/-! ## The two results -/

/-- The mean head. -/
theorem mu_eq : W9 m ρ c (Proc.devRef .tc main_v65) = encoderHead (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (post_mu (W8 m ρ c)).trans ?_
  rw [W8_src, W8_dst, W8_wgt, W8_arg5, second_product, columns_lo]
  rfl

/-- The log-deviation head. -/
theorem ls_eq : W9 m ρ c (Proc.devRef .tc main_v80) = encoderHead (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  refine (post_ls (W8 m ρ c)).trans ?_
  rw [W8_src, W8_dst, W8_wgt, W8_arg7, second_product, columns_hi]
  rfl

/-- The run, read: every weakly fair execution terminates with each result at the encoder's head function of the
    argument arrays, and the arguments unchanged. -/
theorem run : θ_run defs (onTc (τ := τ) (main (F := Ideal))) ⟨m, fun _ => 0, ρ⟩ (fun r => ∀ c : Dev nD,
      r.2.mem ((c.tc : Thread nD τ).loc main_v65) = encoderHead (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v80) = encoderHead (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (mu_eq m ρ c), (h c).2.1.trans (ls_eq m ρ c), (h c).2.2⟩)
    (Cert.KernelIdeal.Named.run_named (F := Ideal) m ρ)

end Cert.KernelIdeal.KValue

end
-- ==== Proof.RefProduct.lean ====
/-
  The reference's matrix products. It multiplies the node features by the first weight array, and the hidden
  activations by each head's weight array, with the host's `dot_general` contracting the 128 features; on the
  extended reals each is the plain sum  (x · w)[r, c] = ∑ k < 128, x[r, k] * w[k, c].
-/
import proofs.«106163_j21543555956945_1_alg».proof.Proof.Gen.ReferenceIdeal
import proofs.«106163_j21543555956945_1_alg».proof.Proof.Product
import Idealize.ShloMosaic.PureOps.Ideal.Laws
import Idealize.ShloMosaic.Lib.ValueIdx

noncomputable section

open scoped BigOperators

namespace Cert.ReferenceIdeal.Product

open Cert.ReferenceIdeal Cert.ReferenceIdeal.Gen Idealize.ShloMosaic Idealize.ShloMosaic.ValueIdx Cert.GcnProduct

/-! ## `dot_S50000x128_S128x128_S50000x128_1_0_0_1_n_n` -/

theorem lhs_row_wide (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_feat_wide (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem rhs_feat_wide (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem rhs_col_wide (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's product of a 50000 × 128 array and a 128 × 128 array is the plain sum over the 128 features. -/
theorem dot_wide_eq (x : FVec Ideal S50000x128 .f32) (w : FVec Ideal S128x128 .f32) :
    Host.dotGeneral (F := Ideal) dot_S50000x128_S128x128_S50000x128_1_0_0_1_n_n none x w = rowsTimes (R := 50000) (C := 128) x w := by
  funext i
  show FloatOps.dotGeneral dot_S50000x128_S128x128_S50000x128_1_0_0_1_n_n none .single x w i = ∑ k : Fin 128, x (ix2 (i 0) k) * w (ix2 k (i 1))
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx i ((contrEquiv1 dot_S50000x128_S128x128_S50000x128_1_0_0_1_n_n 128 rfl rfl).symm k) = ix2 (i 0) k := funext fun a => Fin.ext (by
    match a with
    | ⟨0, _⟩ => exact lhs_row_wide _ _
    | ⟨1, _⟩ => exact (lhs_feat_wide _ _).trans hk)
  have er : dot_S50000x128_S128x128_S50000x128_1_0_0_1_n_n.rhsIdx i ((contrEquiv1 dot_S50000x128_S128x128_S50000x128_1_0_0_1_n_n 128 rfl rfl).symm k) = ix2 k (i 1) := funext fun a => Fin.ext (by
    match a with
    | ⟨0, _⟩ => exact (rhs_feat_wide _ _).trans hk
    | ⟨1, _⟩ => exact rhs_col_wide _ _)
  exact congrArg₂ (· * ·) (congrArg x el) (congrArg w er)

/-! ## `dot_S50000x128_S128x64_S50000x64_1_0_0_1_n_n` -/

theorem lhs_row_head (i : S50000x64.Idx) (q : dot_S50000x128_S128x64_S50000x64_1_0_0_1_n_n.contr.Idx) : (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem lhs_feat_head (i : S50000x64.Idx) (q : dot_S50000x128_S128x64_S50000x64_1_0_0_1_n_n.contr.Idx) : (dot_S50000x128_S128x64_S50000x64_1_0_0_1_n_n.lhsIdx i q 1).val = (q ⟨0, by decide⟩).val :=
  dot_S50000x128_S128x64_S50000x64_1_0_0_1_n_n.lhsIdx_val_of_single rfl i q
theorem rhs_feat_head (i : S50000x64.Idx) (q : dot_S50000x128_S128x64_S50000x64_1_0_0_1_n_n.contr.Idx) : (dot_S50000x128_S128x64_S50000x64_1_0_0_1_n_n.rhsIdx i q 0).val = (q ⟨0, by decide⟩).val :=
  dot_S50000x128_S128x64_S50000x64_1_0_0_1_n_n.rhsIdx_val_of_single rfl i q
theorem rhs_col_head (i : S50000x64.Idx) (q : dot_S50000x128_S128x64_S50000x64_1_0_0_1_n_n.contr.Idx) : (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The host's product of a 50000 × 128 array and a 128 × 64 array is the plain sum over the 128 features. -/
theorem dot_head_eq (x : FVec Ideal S50000x128 .f32) (w : FVec Ideal S128x64 .f32) :
    Host.dotGeneral (F := Ideal) dot_S50000x128_S128x64_S50000x64_1_0_0_1_n_n none x w = rowsTimes (R := 50000) (C := 64) x w := by
  funext i
  show FloatOps.dotGeneral dot_S50000x128_S128x64_S50000x64_1_0_0_1_n_n none .single x w i = ∑ k : Fin 128, x (ix2 (i 0) k) * w (ix2 k (i 1))
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx i ((contrEquiv1 dot_S50000x128_S128x64_S50000x64_1_0_0_1_n_n 128 rfl rfl).symm k) = ix2 (i 0) k := funext fun a => Fin.ext (by
    match a with
    | ⟨0, _⟩ => exact lhs_row_head _ _
    | ⟨1, _⟩ => exact (lhs_feat_head _ _).trans hk)
  have er : dot_S50000x128_S128x64_S50000x64_1_0_0_1_n_n.rhsIdx i ((contrEquiv1 dot_S50000x128_S128x64_S50000x64_1_0_0_1_n_n 128 rfl rfl).symm k) = ix2 k (i 1) := funext fun a => Fin.ext (by
    match a with
    | ⟨0, _⟩ => exact (rhs_feat_head _ _).trans hk
    | ⟨1, _⟩ => exact rhs_col_head _ _)
  exact congrArg₂ (· * ·) (congrArg x el) (congrArg w er)

end Cert.ReferenceIdeal.Product

end
-- ==== Proof.RefValue.lean ====
/-
  What the reference computes, as the encoder's head function. Its generated run names each result as one composed
  term of the argument arrays: the layer operations (gather, scale by the edge weight, scatter-add, bias, clip)
  around three host matrix products. The layer operations are the same ones the kernel program applies, and each host
  product is the plain sum over the 128 features, so each result is `encoderHead` of the arguments. (The reference
  recomputes the edge weights for every layer; the three computations are one and the same term of the edge list.)
-/
import proofs.«106163_j21543555956945_1_alg».proof.Proof.RefRun
import proofs.«106163_j21543555956945_1_alg».proof.Proof.RefProduct
import proofs.«106163_j21543555956945_1_alg».proof.Proof.Encoder

set_option maxRecDepth 16384

noncomputable section

namespace Cert.ReferenceIdeal.RefValue

open Cert.ReferenceIdeal Cert.ReferenceIdeal.Gen Cert.ReferenceIdeal.Product
open Cert.KernelIdeal.Layers Cert.KernelIdeal.Encoder Cert.GcnProduct
open Idealize.ShloMosaic Idealize.ShloMosaic.TcCoe Idealize.SL.Sem

variable (m : (ℓ : Loc nD τ sig) → Buf (Elt Ideal) ℓ) (c : Dev nD)

/-- The reference's mean head, read off its generated run: the layer operations applied to the host's own products. -/
theorem res_main_v88_layers : ValueP.res_main_v88 (F := Ideal) m c =
    headOf (srcNode (m ((c.tc : Thread nD τ).loc main_arg1))) (dstNode (m ((c.tc : Thread nD τ).loc main_arg1))) (edgeWeight (srcNode (m ((c.tc : Thread nD τ).loc main_arg1))) (dstNode (m ((c.tc : Thread nD τ).loc main_arg1)))) (m ((c.tc : Thread nD τ).loc main_arg5))
      (Host.dotGeneral (F := Ideal) (φ₁ := .f32) (φ₂ := .f32) dot_S50000x128_S128x64_S50000x64_1_0_0_1_n_n none
        (hiddenOf (srcNode (m ((c.tc : Thread nD τ).loc main_arg1))) (dstNode (m ((c.tc : Thread nD τ).loc main_arg1))) (edgeWeight (srcNode (m ((c.tc : Thread nD τ).loc main_arg1))) (dstNode (m ((c.tc : Thread nD τ).loc main_arg1)))) (m ((c.tc : Thread nD τ).loc main_arg3))
          (Host.dotGeneral (F := Ideal) (φ₁ := .f32) (φ₂ := .f32) dot_S50000x128_S128x128_S50000x128_1_0_0_1_n_n none (m ((c.tc : Thread nD τ).loc main_arg0)) (m ((c.tc : Thread nD τ).loc main_arg2))))
        (m ((c.tc : Thread nD τ).loc main_arg4))) := by
  unfold ValueP.res_main_v88; rfl

/-- The reference's mean head is the encoder's head function of its argument arrays. -/
theorem res_main_v88_eq : ValueP.res_main_v88 (F := Ideal) m c
    = encoderHead (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (res_main_v88_layers m c).trans ?_
  rw [dot_wide_eq, dot_head_eq]
  rfl

/-- The reference's log-deviation head, read off its generated run: the layer operations applied to the host's own products. -/
theorem res_main_v130_layers : ValueP.res_main_v130 (F := Ideal) m c =
    headOf (srcNode (m ((c.tc : Thread nD τ).loc main_arg1))) (dstNode (m ((c.tc : Thread nD τ).loc main_arg1))) (edgeWeight (srcNode (m ((c.tc : Thread nD τ).loc main_arg1))) (dstNode (m ((c.tc : Thread nD τ).loc main_arg1)))) (m ((c.tc : Thread nD τ).loc main_arg7))
      (Host.dotGeneral (F := Ideal) (φ₁ := .f32) (φ₂ := .f32) dot_S50000x128_S128x64_S50000x64_1_0_0_1_n_n none
        (hiddenOf (srcNode (m ((c.tc : Thread nD τ).loc main_arg1))) (dstNode (m ((c.tc : Thread nD τ).loc main_arg1))) (edgeWeight (srcNode (m ((c.tc : Thread nD τ).loc main_arg1))) (dstNode (m ((c.tc : Thread nD τ).loc main_arg1)))) (m ((c.tc : Thread nD τ).loc main_arg3))
          (Host.dotGeneral (F := Ideal) (φ₁ := .f32) (φ₂ := .f32) dot_S50000x128_S128x128_S50000x128_1_0_0_1_n_n none (m ((c.tc : Thread nD τ).loc main_arg0)) (m ((c.tc : Thread nD τ).loc main_arg2))))
        (m ((c.tc : Thread nD τ).loc main_arg6))) := by
  unfold ValueP.res_main_v130; rfl

/-- The reference's log-deviation head is the encoder's head function of its argument arrays. -/
theorem res_main_v130_eq : ValueP.res_main_v130 (F := Ideal) m c
    = encoderHead (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  refine (res_main_v130_layers m c).trans ?_
  rw [dot_wide_eq, dot_head_eq]
  rfl

end Cert.ReferenceIdeal.RefValue

end
-- ==== Proof.lean ====
/-
  A two-layer graph-convolution encoder with a mean head and a log-deviation head, over 50000 nodes and 800000 edges:
      hid = max (A (x · w₁) + b₁) 0,      mean = A (hid · w_μ) + b_μ,      logdev = A (hid · w_σ) + b_σ,
  where `A` gathers every edge's source row, scales it by the edge weight `s[src] * s[dst]`
  (`s = rsqrt (max deg 1)` where the in-degree `deg` is positive, else 0) and adds it into the edge's target row.

  The kernel program computes the three matrix products in two row-blocked kernels — `x · w₁`, and
  `hid · [w_μ | w_σ]` whose column halves are then taken apart — and everything else with the same host operations
  as the reference, which uses three host products. On the extended reals a block of a product is that block of the
  whole product (a row of the result depends on that row of the left factor only), narrowing the factors to bf16
  changes nothing, accumulating into zeros adds nothing, and column `c` (resp. `64 + c`) of the side-by-side weights
  is column `c` of `w_μ` (resp. `w_σ`); so both programs end with `encoderHead` of the arguments for each head. No
  step needs the inputs finite.

  The frames of the two kernel programs are the generated ones; the reference's frame is its run with the results
  dropped; the idealization rewrote nothing, so `preserves` is trivial.
-/
import proofs.«106163_j21543555956945_1_alg».proof.Defs
import proofs.«106163_j21543555956945_1_alg».proof.Proof.Gen.Kernel
import proofs.«106163_j21543555956945_1_alg».proof.Proof.Gen.Kernel.Frame
import proofs.«106163_j21543555956945_1_alg».proof.Proof.Gen.KernelIdeal
import proofs.«106163_j21543555956945_1_alg».proof.Proof.Gen.KernelIdeal.Frame
import proofs.«106163_j21543555956945_1_alg».proof.Proof.Gen.ReferenceIdeal
import proofs.«106163_j21543555956945_1_alg».proof.Proof.Gen.Pre_finite_inputs
import proofs.«106163_j21543555956945_1_alg».proof.Proof.KernelValue
import proofs.«106163_j21543555956945_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- From memories that agree on the arguments both programs end with each head at `encoderHead` of the arguments. -/
theorem algebraic : Cert.algebraic_KernelIdeal_ReferenceIdeal := by
  intro m ρ m' ρ' _ hagree
  refine ⟨fun c => Cert.KernelIdeal.Encoder.encoderHead (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.KernelIdeal.Encoder.encoderHead (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.RefValue.res_main_v88_eq, (hagree c).1, (hagree c).2.1, (hagree c).2.2.1, (hagree c).2.2.2.1, (hagree c).2.2.2.2.1, (hagree c).2.2.2.2.2.1]
  · rw [Cert.ReferenceIdeal.RefValue.res_main_v130_eq, (hagree c).1, (hagree c).2.1, (hagree c).2.2.1, (hagree c).2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
